-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S512x4096 : Shape := ⟨2, ![512, 4096]⟩
abbrev S256x4096 : Shape := ⟨2, ![256, 4096]⟩
abbrev S4096x256 : Shape := ⟨2, ![4096, 256]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .bf16⟩
  | .hbm, ⟨5, _⟩ => ⟨S4096x4096, .bf16⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S256x4096, .f32⟩
  | .local _ .vmem, ⟨5, _⟩ => ⟨S256x4096, .f32⟩
  | .local _ .vmem, ⟨6, _⟩ => ⟨S4096x256, .bf16⟩
  | .local _ .vmem, ⟨7, _⟩ => ⟨S4096x256, .bf16⟩
  | .local _ .vmem, ⟨8, _⟩ => ⟨S1024x2048, .bf16⟩
  | .local _ .vmem, ⟨9, _⟩ => ⟨S1024x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S256x4096_S256x4096_0_0 : ∀ a, (![0, 0] : Fin 2 → Nat) a + S256x4096.size a ≤ S256x4096.size a
  h_S256x4096 : 0 < S256x4096.numel
  transposes_S256x4096_p1_0_S4096x256 : S256x4096.Transposes [1, 0] S4096x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .bf16 = 32 ∨ (Rect.block (s := S4096x4096) S4096x256.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x4096.size a
  hwx2_0 : ∀ i : grid2.Coords, EltTy.bits .bf16 = 32 ∨ (Rect.block (s := S8192x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x4096.size a
  hwx2_1 : ∀ i : grid2.Coords, EltTy.bits .bf16 = 32 ∨ (Rect.block (s := S4096x4096) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .f32 = 32 ∨ (Rect.block (s := S8192x4096) S1024x1024.size (cc2_transform_3 i) (hinb2_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BitsCast.lean ====
/-
  Region 0 of the kernel's @main: the pass that re-types the flattened activations, one block of 512 rows at a
  time. At each of the 16 grid points the body loads the whole 512×4096 block, narrows every entry, and stores the
  whole block; the invariant between points is only the untouched scoped buffers and the generator register.
-/
import proofs.«172007_j49074296324136_2_alg».proof.Proof.Gen.Kernel.Launch
import proofs.«172007_j49074296324136_2_alg».proof.Proof.Gen.Kernel.Skeleton
import proofs.«172007_j49074296324136_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The cast region at the contents `V` it is entered from -/

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, whatever proof data has the region's
    entry contents as its arrays and leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rin0 : Rect S512x4096 := Rect.unit (s := S512x4096) ![0, 0] S512x4096.size Facts₀.inb_S512x4096_S512x4096_0_0
abbrev rout0 : Rect S512x4096 := Rect.unit (s := S512x4096) ![0, 0] S512x4096.size Facts₀.inb_S512x4096_S512x4096_0_0

/-- What the body leaves in the output block: its one store, of the payload of the whole input block. -/
def out0_1 (x0 : Vec F S512x4096 .f32) : Vec F S512x4096 .bf16 :=
  View.canon [⟨rout0, k0_pay1 (View.ld x0 rin0)⟩]

/-- The one store covers the output block. -/
theorem cover0_1 (p0 : Vec F S512x4096 .bf16) (y : S512x4096.Idx) :
    ∃ pc ∈ ([⟨rout0, p0⟩] : List (View.Piece (Elt F) S512x4096 .bf16)), y ∈ pc.1.set :=
  View.cover_of_tiled [⟨rout0, p0⟩] S512x4096.size (by rfl) y

set_option maxHeartbeats 1000000 in
/-- The body on whole staging buffers, the input at contents `x0` and the output at anything, runs to the
    continuation with the input as it was and the output at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_bf16_kernel i arg1 harg1 arg2 harg2) K := by
  simp only [cc0__cast_bf16_kernel_eq_skeleton]; unfold cc0__cast_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`: the arrays as the region finds them; after the body the input buffer at
    its block and the output buffer at `out0_1` of it; the invariant only the scoped rest and the generator
    register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.BitsTernary.lean ====
/-
  Region 1 of the kernel's @main: the pass that replaces every weight by its sign relative to the threshold
  (+1 above it, −1 below its negative, 0 otherwise) and lays the result out transposed. At each of the 16 grid
  points the body loads a block of 256 output rows by all 4096 input columns, computes the three-valued block,
  transposes it, and stores it whole as a 4096×256 block of the transposed array.
-/
import proofs.«172007_j49074296324136_2_alg».proof.Proof.Gen.Kernel.Launch
import proofs.«172007_j49074296324136_2_alg».proof.Proof.Gen.Kernel.Skeleton
import proofs.«172007_j49074296324136_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The three-valued weight region at the contents `V` it is entered from -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, whatever proof data has the region's
    entry contents as its arrays and leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole input block and the whole output block, as rectangles. -/
abbrev rin1 : Rect S256x4096 := Rect.unit (s := S256x4096) ![0, 0] S256x4096.size Facts₀.inb_S256x4096_S256x4096_0_0
abbrev rout1 : Rect S4096x256 := Rect.unit (s := S4096x256) ![0, 0] S4096x256.size Facts₀.inb_S4096x256_S4096x256_0_0

/-- What the body leaves in the output block: its one store, of the payload of the whole input block. -/
def out1_1 (x0 : Vec F S256x4096 .f32) : Vec F S4096x256 .bf16 :=
  View.canon [⟨rout1, k1_pay1 (View.ld x0 rin1)⟩]

/-- The one store covers the output block. -/
theorem cover1_1 (p0 : Vec F S4096x256 .bf16) (y : S4096x256.Idx) :
    ∃ pc ∈ ([⟨rout1, p0⟩] : List (View.Piece (Elt F) S4096x256 .bf16)), y ∈ pc.1.set :=
  View.cover_of_tiled [⟨rout1, p0⟩] S4096x256.size (by rfl) y

set_option maxHeartbeats 1000000 in
/-- The body on whole staging buffers, the input at contents `x0` and the output at anything, runs to the
    continuation with the input as it was and the output at `out1_1 x0`. -/
theorem sound_kernel1 (c : Dev nD) (E : Set ℕ) (i : grid1.Coords) (arg1 : Memref sig .tc .vmem S256x4096 .f32) (harg1 : arg1.IsWhole) (arg2 : Memref sig .tc .vmem S4096x256 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__binarize_t_kernel i arg1 harg1 arg2 harg2) K := by
  simp only [cc1__binarize_t_kernel_eq_skeleton]; unfold cc1__binarize_t_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The region's proof data on core `c`: the arrays as the region finds them; after the body the input buffer at
    its block and the output buffer at `out1_1` of it; the invariant only the scoped rest and the generator
    register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.BitsMatmulRuns.lean ====
/-
  Region 2 of the kernel's @main, first half: the tiled product with bias. The grid is 8 × 4 × 2; the last axis
  walks the two halves of the contracted dimension, so the points come in pairs (even position: first half, odd
  position: second half). The body keeps a running sum in a scratch block that lives across the two points of a
  pair: at the even point it clears the scratch and adds the first partial product; at the odd point it adds the
  second partial product and then stores scratch + bias row into the output block, which only then is written
  back. So the scratch after an even point depends on that point alone, and everything the odd point leaves
  depends on the pair — no longer history. This module states, for the contents `V` the region is entered from:
  each window's block, the two branch conditions in closed form, where the output window is idle, and the body's
  run in either case on arbitrary whole buffers, the pieces it stores being found by running it.
-/
import proofs.«172007_j49074296324136_2_alg».proof.Proof.Gen.Kernel.Launch
import proofs.«172007_j49074296324136_2_alg».proof.Proof.Gen.Kernel.Skeleton
import proofs.«172007_j49074296324136_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (the bias row is
    fetched at even positions only: at the odd one its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions, in closed form over the grid -/

/-- "This is the first half of the contraction": the body clears the running sum. -/
abbrev condFirst (i : grid2.Coords) : Prop := (Scalar.cmpi .ne (Scalar.extui (Scalar.cmpi .eq (BitVec.ofNat 32 (i 2).val) 0#32)) 0#32) = 1#1
theorem hcondFirst : ∀ t : Fin cfg2.N, condFirst (grid2.coords t) ↔ t.val % 2 = 0 :=
  (by decide +kernel : ∀ t : Fin grid2.N, condFirst (grid2.coords t) ↔ t.val % 2 = 0)

/-- "This is the last half of the contraction": the body adds the bias row and stores the output block. -/
abbrev condLast (i : grid2.Coords) : Prop := k2_cond2 i = 1#1
theorem hcondLast : ∀ t : Fin cfg2.N, condLast (grid2.coords t) ↔ t.val % 2 = 1 :=
  (by decide +kernel : ∀ t : Fin grid2.N, condLast (grid2.coords t) ↔ t.val % 2 = 1)

/-! ## Where the windows are idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
/-- At an even position the output window is idle (nothing is stored into it) and is not written back; -/
theorem idle2_3 : ∀ t : Fin cfg2.N, t.val % 2 = 0 → cfg2.idle 3 (grid2.coords t) = true :=
  (by decide +kernel : ∀ t : Fin grid2.N, t.val % 2 = 0 → cfg2.idle 3 (grid2.coords t) = true)
theorem noflush2_3 : ∀ t : Fin cfg2.N, t.val % 2 = 0 → (cfg2.win 3).flush t = false :=
  (by decide +kernel : ∀ t : Fin grid2.N, t.val % 2 = 0 → win2_3.flush t = false)
/-- at an odd one it is live. -/
theorem live2_3 : ∀ t : Fin cfg2.N, t.val % 2 = 1 → cfg2.idle 3 (grid2.coords t) = false :=
  (by decide +kernel : ∀ t : Fin grid2.N, t.val % 2 = 1 → cfg2.idle 3 (grid2.coords t) = false)

/-! ## The buffers the body is called with -/

abbrev ms2_0 (t : Fin cfg2.N) : Memref sig .tc .vmem S1024x2048 .bf16 := win2_0.stage (cfg2.slots t 0)
abbrev hs2_0 (t : Fin cfg2.N) : (ms2_0 t).IsWhole := Facts₀.hstage2_0 ((cfg2.slots t 0).cast Facts₀.nbuf2_0)
abbrev ms2_1 (t : Fin cfg2.N) : Memref sig .tc .vmem S2048x1024 .bf16 := win2_1.stage (cfg2.slots t 1)
abbrev hs2_1 (t : Fin cfg2.N) : (ms2_1 t).IsWhole := Facts₀.hstage2_1 ((cfg2.slots t 1).cast Facts₀.nbuf2_1)
abbrev ms2_2 (t : Fin cfg2.N) : Memref sig .tc .vmem S1x1024 .f32 := win2_2.stage (cfg2.slots t 2)
abbrev hs2_2 (t : Fin cfg2.N) : (ms2_2 t).IsWhole := Facts₀.hstage2_2 ((cfg2.slots t 2).cast Facts₀.nbuf2_2)
abbrev ms2_3 (t : Fin cfg2.N) : Memref sig .tc .vmem S1024x1024 .f32 := win2_3.stage (cfg2.slots t 3)
abbrev hs2_3 (t : Fin cfg2.N) : (ms2_3 t).IsWhole := Facts₀.hstage2_3 ((cfg2.slots t 3).cast Facts₀.nbuf2_3)
/-- The running sum's scratch block, -/
abbrev scM : Memref sig .tc .vmem S1024x1024 .f32 := Memref.whole cc2_scratch0
/-- as a view, through which its contents are stated; and one output staging buffer likewise. -/
abbrev VS : View sig .tc .vmem S1024x1024 .f32 := scM.view
abbrev VO : View sig .tc .vmem S1024x1024 .f32 := (Memref.whole cc2_stg3_0 : Memref sig .tc .vmem S1024x1024 .f32).view

/-- The region's scoped buffers that are no staging buffer of its own, with the scratch block split off. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers, never opened here. -/
abbrev others (c : Dev nD) : sProp 𝕄 :=
  Pipeline.scopedRestBut (Ix := Unit) (Name := ℕ) (U := UR sig nD τ) (Lvl := ℕ) (Val := Elt F) spec2 c [cc2_scratch0]

/-- The class invariant with the scratch block as a memref owned at some contents. -/
theorem PhiA2_eq (c : Dev nD) :
    (Pipeline.ΦA spec2 c : sProp 𝕄)
      = iprop(iprop((∃ d, owns (c : Thread nD τ) scM fullShare d) ∗ others (F := F) c) ∗ (∃ r, prngReg c r)) := by
  unfold Pipeline.ΦA; rw [scopedRest2_split]; simp only [scM, owns_whole]; try rfl

/-! ## The body's run in either case -/

set_option maxHeartbeats 2000000 in
/-- FIRST HALF (the running sum is cleared, the output is not stored): on whole buffers, the two operand blocks at
    contents `x0`, `x1` and the scratch at anything, the body runs to the continuation with the operands as they were
    and the scratch with the found pieces written. The bias and output buffers are not touched. -/
noncomputable def runFirst (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : condFirst i) (hc1 : ¬condLast i)
    (x0 : Vec F S1024x2048 .bf16) (x1 : Vec F S2048x1024 .bf16) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_bias_kernel i arg3 harg3 arg4 harg4 arg5 harg5 arg6 harg6 arg7 harg7) K } := by
  refine ⟨?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 2000000 in
/-- LAST HALF (the running sum is kept, the output is stored): the operand blocks at `x0`, `x1`, the bias row at
    `x2`, the output at anything, the scratch at the contents `xs` the point before left: the body runs to the
    continuation with the inputs as they were and the output and the scratch with the found pieces written. -/
noncomputable def runLast (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬condFirst i) (hc1 : condLast i)
    (x0 : Vec F S1024x2048 .bf16) (x1 : Vec F S2048x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Fr

end
-- ==== Proof.BitsMatmul.lean ====
/-
  Region 2 of the kernel's @main, second half: what the running sum and the output block hold after each grid
  point, the invariant that carries the running sum from the even point of a pair to the odd one, the proof
  data, and the body obligation at every point.
-/
import proofs.«172007_j49074296324136_2_alg».proof.Proof.BitsMatmulRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces cover their blocks; what they leave, read back -/

theorem scoverFirst (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : condFirst i) (hc1 : ¬condLast i)
    (x0 : Vec F S1024x2048 .bf16) (x1 : Vec F S2048x1024 .bf16) (y : S1024x1024.Idx) :
    ∃ pc ∈ (runFirst c i arg3 harg3 arg4 harg4 arg5 harg5 arg6 harg6 arg7 harg7 hc0 hc1 x0 x1).1, y ∈ pc.1.set :=
  View.cover_of_tiledL (runFirst c i arg3 harg3 arg4 harg4 arg5 harg5 arg6 harg6 arg7 harg7 hc0 hc1 x0 x1).1 S1024x1024.size (by sl_kernel_rfl) y

/-- The running sum after the first half of a pair. -/
def sumFirst (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : condFirst i) (hc1 : ¬condLast i)
    (x0 : Vec F S1024x2048 .bf16) (x1 : Vec F S2048x1024 .bf16) : Vec F S1024x1024 .f32 :=
  VS.read (Elt F) (VS.writes (Elt F) VS.junk (runFirst c i arg3 harg3 arg4 harg4 arg5 harg5 arg6 harg6 arg7 harg7 hc0 hc1 x0 x1).1)

theorem coverLast (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬condFirst i) (hc1 : condLast i)
    (x0 : Vec F S1024x2048 .bf16) (x1 : Vec F S2048x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x1024.size (by sl_kernel_rfl) y

/-- The output block after the last half of a pair. -/
def outLast (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬condFirst i) (hc1 : condLast i)
    (x0 : Vec F S1024x2048 .bf16) (x1 : Vec F S2048x1024 .bf16) (x2 : Vec F S1x1024 .f32) (xs : Vec F S1024x1024 .f32) : Vec F S1024x1024 .f32 :=
  VO.read (Elt F) (VO.writes (Elt F) VO.junk (runLast c i arg3 harg3 arg4 harg4 arg5 harg5 arg6 harg6 arg7 harg7 hc0 hc1 x0 x1 x2 xs).1)

section
variable (V : (c : Dev nD) → (b : Ref sig .tc) → Buf (Elt F) ((c : Thread nD τ).loc b))

/-! ## What the running sum and the output block hold, point by point -/

/-- After an EVEN point: the running sum of that point's two operand blocks alone. -/
def accAt (c : Dev nD) (t : Fin cfg2.N) (he : t.val % 2 = 0) : Vec F S1024x1024 .f32 :=
  sumFirst c (grid2.coords t) (ms2_0 t) (hs2_0 t) (ms2_1 t) (hs2_1 t) (ms2_2 t) (hs2_2 t) (ms2_3 t) (hs2_3 t) scM (Memref.isWhole_whole _) ((hcondFirst t).mpr he) (fun h => by have := (hcondLast t).mp h; omega)
    (iblk2 V c 0 t) (iblk2 V c 1 t)

theorem accAt_congr (c : Dev nD) (t t' : Fin cfg2.N) (h : t = t') (he : t.val % 2 = 0) (he' : t'.val % 2 = 0) :
    accAt V c t he = accAt V c t' he' := by subst h; rfl

/-- After an ODD point: the output block, from that point's three input blocks and the running sum the even point
    before it left. At an even point the output window is idle and this value is a placeholder nothing reads. -/
def outAt (c : Dev nD) (t : Fin cfg2.N) : Vec F S1024x1024 .f32 :=
  if ho : t.val % 2 = 1 then
    outLast c (grid2.coords t) (ms2_0 t) (hs2_0 t) (ms2_1 t) (hs2_1 t) (ms2_2 t) (hs2_2 t) (ms2_3 t) (hs2_3 t) scM (Memref.isWhole_whole _) (fun h => by have := (hcondFirst t).mp h; omega) ((hcondLast t).mpr ho)
      (iblk2 V c 0 t) (iblk2 V c 1 t) (iblk2 V c 2 t) (accAt V c ⟨t.val - 1, by have := t.isLt; omega⟩ (by simp only []; omega))
  else VO.read (Elt F) (VO.writes (Elt F) VO.junk [])

/-! ## The invariant between points -/

/-- Before position `n`: if `n` is odd, the scratch block at the running sum the even point `n - 1` left, beside the
    other scoped buffers and the generator register; if `n` is even (the first point, or the point after a finished
    pair) nothing is remembered of the scratch. -/
def Phi2 (c : Dev nD) (n : ℕ) (hn : n ≤ cfg2.N) : sProp 𝕄 :=
  if h : n % 2 = 1 then
    iprop(iprop(owns (c : Thread nD τ) scM fullShare (accAt V c ⟨n - 1, by omega⟩ (by simp only []; omega)) ∗ others (F := F) c) ∗ (∃ r, prngReg c r))
  else Pipeline.ΦA spec2 c

theorem Phi2_even (c : Dev nD) (n : ℕ) (hn : n ≤ cfg2.N) (h : n % 2 = 0) : Phi2 V c n hn = Pipeline.ΦA spec2 c := by
  unfold Phi2; rw [dif_neg (by omega)]

theorem Phi2_odd (c : Dev nD) (n : ℕ) (hn : n ≤ cfg2.N) (h : n % 2 = 1) :
    Phi2 V c n hn = iprop(iprop(owns (c : Thread nD τ) scM fullShare (accAt V c ⟨n - 1, by omega⟩ (by simp only []; omega)) ∗ others (F := F) c) ∗ (∃ r, prngReg c r)) := by
  unfold Phi2; rw [dif_pos h]

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi2_castSucc (c : Dev nD) (t : Fin cfg2.N) :
    (dat2 V c).Φ t.castSucc = Phi2 V c t.val (Nat.le_of_lt t.isLt) := by
  dsimp only [dat2]; simp only [Fin.coe_castSucc]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- At an even point the invariant hands the body the scratch at anything and takes it back at this point's running
    sum; the bias and output buffers pass through untouched (the output window is idle there). At an odd point the
    invariant hands over the scratch at the running sum the point before left; the body leaves the output block at
    `outAt`, and nothing is remembered of the scratch afterwards. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_castSucc]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  by_cases he : t.val % 2 = 0
  · rw [Dat.leavesExact_idle (dat2 V c) 3 t (idle2_3 t he) (noflush2_3 t he)]
    rw [Phi2_even V c t.val _ he, PhiA2_eq, Phi2_odd V c (t.val + 1) t.isLt (by omega)]
    rw [accAt_congr V c ⟨t.val + 1 - 1, by have := t.isLt; omega⟩ t (Fin.ext (by show t.val + 1 - 1 = t.val; omega)) (by simp only []; omega) he]
    unfold accAt sumFirst
    iintro ⟨⟨⟨HS, Hoth⟩, Hg⟩, Ho, ⟨%d0, H0⟩, ⟨%d1, H1⟩, ⟨%d2, H2⟩, H3⟩
    iapply ((runFirst c (grid2.coords t) _ _ _ _ _ _ _ _ _ _ ((hcondFirst t).mpr he) (fun h => by have := (hcondLast t).mp h; omega) (iblk2 V c 0 t) (iblk2 V c 1 t)).2 Set.univ _)
    isplitl [H0]; · iexact H0
    isplitl [H1]; · iexact H1
    isplitl [HS]; · iexact HS
    iintro ⟨H0, H1, ⟨%es, HS⟩⟩
    isplitl [HS Hoth Hg]
    · isplitl [HS Hoth]
      · isplitl [HS]
        · unfold owns; iexists _; isplitr
          swap; · iexact HS
          ipureintro; exact View.read_writes_of_cover _ _ _ _ _ (scoverFirst c _ _ _ _ _ _ _ _ _ _ _ _ _ _ _)
        iexact Hoth
      iexact Hg
    isplitl [Ho]; · iexact Ho
    isplitl [H0]; · iexact H0
    isplitl [H1]; · iexact H1
    isplitl [H2]; · iexact H2
    iexact H3
  · have ho : t.val % 2 = 1 := by omega
    rw [show (dat2 V c).leavesExact 3 t = owns (c : Thread nD τ) (ms2_3 t) fullShare ((dat2 V c).after 3 t) from by
      unfold Dat.leavesExact; rw [live2_3 t ho], after2_3]
    rw [Phi2_odd V c t.val _ ho, Phi2_even V c (t.val + 1) t.isLt (by omega), PhiA2_eq]
    unfold outAt; rw [dif_pos ho]; unfold outLast
    iintro ⟨⟨⟨HS, Hoth⟩, Hg⟩, Ho, ⟨%d0, H0⟩, ⟨%d1, H1⟩, ⟨%d2, H2⟩, ⟨%d3, H3⟩⟩
    iapply ((runLast c (grid2.coords t) _ _ _ _ _ _ _ _ _ _ (fun h => by have := (hcondFirst t).mp h; omega) ((hcondLast t).mpr ho) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · isplitl [HS]
        · iexists _; unfold owns; iexists _; isplitr
          swap; · iexact HS
          ipureintro; rfl
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLast c _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- The class invariant is the invariant before the first point, -/
theorem hin2 (c : Dev nD) : Pipeline.ΦA spec2 c ⊢ (dat2 V c).Φ 0 := by
  rw [show (dat2 V c).Φ 0 = Phi2 V c 0 (Nat.zero_le _) from rfl, Phi2_even V c 0 _ rfl]

/-- and after the last point (an even position) the invariant is the class invariant again. -/
theorem hout2 (c : Dev nD) : (dat2 V c).Φ (Fin.last cfg2.N) ⊢ Pipeline.ΦA spec2 c := by
  rw [show (dat2 V c).Φ (Fin.last cfg2.N) = Phi2 V c cfg2.N (Nat.le_refl _) from rfl,
    Phi2_even V c cfg2.N _ (by rw [show cfg2.N = 64 from N_2])]

end

end Cert.Kernel.Fr

end
-- ==== Proof.BitsRun.lean ====
/-
  The run of the kernel's @main as six segments: flatten the activations (host), re-type them (region 0), make the
  three-valued transposed weights (region 1), view the bias as a row (host), the tiled product with bias
  (region 2), un-flatten the result (host). The contents of every unscoped buffer at each segment boundary are a
  fold from the launch memory: a host stretch applies its operations, a region replaces its arrays by what its
  write-backs leave. The run theorem says every weakly fair execution terminates without fault with every unscoped
  buffer at the last stage of that fold; the argument arrays are then read back to the launch memory, and the
  result array to the un-flattening of region 2's final output array.
-/
import proofs.«172007_j49074296324136_2_alg».proof.Proof.BitsCast
import proofs.«172007_j49074296324136_2_alg».proof.Proof.BitsTernary
import proofs.«172007_j49074296324136_2_alg».proof.Proof.BitsMatmul
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
/-- After the flattening of the activations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the bias is viewed as a row (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit: its arrays at what its write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the un-flattening of the result (the return). -/
abbrev W6 : Dev nD → Valuation τ sig (Elt F) := fun c => StableHlo.after hostOps3 (W5 m ρ c)

/-! ## The proof data family and the thread state -/

abbrev admNone : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admNone p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem ops3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W6 m ρ c)

/-! ## The regions as segments -/

set_option backward.isDefEq.respectTransparency.types false in
/-- Region 0 over the thread state: entered from every unscoped buffer at `W1`, left at `W2`. Its arrays are
    split out of the unscoped buffers at entry and put back at their final contents at exit; the generator register goes
    into the invariant and comes back; nothing is owed; the kernel has no semaphore of its own. -/
def reg0 : Pipeline.RegionSeg (pcfgs (F := F)) admNone (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admNone (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admNone (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers at entry and put back at their final contents at exit; the generator register goes
    into the invariant and comes back; nothing is owed; the kernel has no semaphore of its own. -/
def reg1 : Pipeline.RegionSeg (pcfgs (F := F)) admNone (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admNone (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admNone (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers at entry and put back at their final contents at exit; the generator register goes
    into the invariant and comes back; nothing is owed; the kernel has no semaphore of its own. -/
def reg2 : Pipeline.RegionSeg (pcfgs (F := F)) admNone (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) admNone (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admNone (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) admNone (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)),
    .region (reg2 m ρ),
    .host (hseg hostOps3 hostOps3_sub ops3_fresh (W5 m ρ)) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, with every unscoped
    buffer of every core at the last stage of the fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) admNone (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, -, Ho⟩
      isplitl [Hh]; · iexact Hh
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      unfold Tₙ StableHlo.held
      iintro ⟨Hh, HSI⟩
      imodintro
      iapply (pointsTo_read_all (Pipeline.ucRefs τ sig) (fun b => (((c : Thread nD τ)).1, b)) (W6 m ρ c) s')
      isplitl [Hh] <;> iassumption)
    (hQ := fun s h => h)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg2) := rfl

/-- THE FRAME: every execution terminates without fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run m ρ)

end Cert.Kernel.Fr

end
-- ==== Proof.IdealCast.lean ====
/-
  Region 0 of the kernel's @main: the pass that re-types the flattened activations, one block of 512 rows at a
  time. At each of the 16 grid points the body loads the whole 512×4096 block, narrows every entry, and stores the
  whole block; the invariant between points is only the untouched scoped buffers and the generator register.
-/
import proofs.«172007_j49074296324136_2_alg».proof.Proof.Gen.KernelIdeal.Launch
import proofs.«172007_j49074296324136_2_alg».proof.Proof.Gen.KernelIdeal.Skeleton
import proofs.«172007_j49074296324136_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The cast region at the contents `V` it is entered from -/

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, whatever proof data has the region's
    entry contents as its arrays and leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rin0 : Rect S512x4096 := Rect.unit (s := S512x4096) ![0, 0] S512x4096.size Facts₀.inb_S512x4096_S512x4096_0_0
abbrev rout0 : Rect S512x4096 := Rect.unit (s := S512x4096) ![0, 0] S512x4096.size Facts₀.inb_S512x4096_S512x4096_0_0

/-- What the body leaves in the output block: its one store, of the payload of the whole input block. -/
def out0_1 (x0 : Vec F S512x4096 .f32) : Vec F S512x4096 .bf16 :=
  View.canon [⟨rout0, k0_pay1 (View.ld x0 rin0)⟩]

/-- The one store covers the output block. -/
theorem cover0_1 (p0 : Vec F S512x4096 .bf16) (y : S512x4096.Idx) :
    ∃ pc ∈ ([⟨rout0, p0⟩] : List (View.Piece (Elt F) S512x4096 .bf16)), y ∈ pc.1.set :=
  View.cover_of_tiled [⟨rout0, p0⟩] S512x4096.size (by rfl) y

set_option maxHeartbeats 1000000 in
/-- The body on whole staging buffers, the input at contents `x0` and the output at anything, runs to the
    continuation with the input as it was and the output at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_bf16_kernel i arg1 harg1 arg2 harg2) K := by
  simp only [cc0__cast_bf16_kernel_eq_skeleton]; unfold cc0__cast_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`: the arrays as the region finds them; after the body the input buffer at
    its block and the output buffer at `out0_1` of it; the invariant only the scoped rest and the generator
    register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.IdealTernary.lean ====
/-
  Region 1 of the kernel's @main: the pass that replaces every weight by its sign relative to the threshold
  (+1 above it, −1 below its negative, 0 otherwise) and lays the result out transposed. At each of the 16 grid
  points the body loads a block of 256 output rows by all 4096 input columns, computes the three-valued block,
  transposes it, and stores it whole as a 4096×256 block of the transposed array.
-/
import proofs.«172007_j49074296324136_2_alg».proof.Proof.Gen.KernelIdeal.Launch
import proofs.«172007_j49074296324136_2_alg».proof.Proof.Gen.KernelIdeal.Skeleton
import proofs.«172007_j49074296324136_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The three-valued weight region at the contents `V` it is entered from -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, whatever proof data has the region's
    entry contents as its arrays and leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole input block and the whole output block, as rectangles. -/
abbrev rin1 : Rect S256x4096 := Rect.unit (s := S256x4096) ![0, 0] S256x4096.size Facts₀.inb_S256x4096_S256x4096_0_0
abbrev rout1 : Rect S4096x256 := Rect.unit (s := S4096x256) ![0, 0] S4096x256.size Facts₀.inb_S4096x256_S4096x256_0_0

/-- What the body leaves in the output block: its one store, of the payload of the whole input block. -/
def out1_1 (x0 : Vec F S256x4096 .f32) : Vec F S4096x256 .bf16 :=
  View.canon [⟨rout1, k1_pay1 (View.ld x0 rin1)⟩]

/-- The one store covers the output block. -/
theorem cover1_1 (p0 : Vec F S4096x256 .bf16) (y : S4096x256.Idx) :
    ∃ pc ∈ ([⟨rout1, p0⟩] : List (View.Piece (Elt F) S4096x256 .bf16)), y ∈ pc.1.set :=
  View.cover_of_tiled [⟨rout1, p0⟩] S4096x256.size (by rfl) y

set_option maxHeartbeats 1000000 in
/-- The body on whole staging buffers, the input at contents `x0` and the output at anything, runs to the
    continuation with the input as it was and the output at `out1_1 x0`. -/
theorem sound_kernel1 (c : Dev nD) (E : Set ℕ) (i : grid1.Coords) (arg1 : Memref sig .tc .vmem S256x4096 .f32) (harg1 : arg1.IsWhole) (arg2 : Memref sig .tc .vmem S4096x256 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__binarize_t_kernel i arg1 harg1 arg2 harg2) K := by
  simp only [cc1__binarize_t_kernel_eq_skeleton]; unfold cc1__binarize_t_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The region's proof data on core `c`: the arrays as the region finds them; after the body the input buffer at
    its block and the output buffer at `out1_1` of it; the invariant only the scoped rest and the generator
    register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.IdealMatmulRuns.lean ====
/-
  Region 2 of the kernel's @main, first half: the tiled product with bias. The grid is 8 × 4 × 2; the last axis
  walks the two halves of the contracted dimension, so the points come in pairs (even position: first half, odd
  position: second half). The body keeps a running sum in a scratch block that lives across the two points of a
  pair: at the even point it clears the scratch and adds the first partial product; at the odd point it adds the
  second partial product and then stores scratch + bias row into the output block, which only then is written
  back. So the scratch after an even point depends on that point alone, and everything the odd point leaves
  depends on the pair — no longer history. This module states, for the contents `V` the region is entered from:
  each window's block, the two branch conditions in closed form, where the output window is idle, and the body's
  run in either case on arbitrary whole buffers, the pieces it stores being found by running it.
-/
import proofs.«172007_j49074296324136_2_alg».proof.Proof.Gen.KernelIdeal.Launch
import proofs.«172007_j49074296324136_2_alg».proof.Proof.Gen.KernelIdeal.Skeleton
import proofs.«172007_j49074296324136_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (the bias row is
    fetched at even positions only: at the odd one its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions, in closed form over the grid -/

/-- "This is the first half of the contraction": the body clears the running sum. -/
abbrev condFirst (i : grid2.Coords) : Prop := (Scalar.cmpi .ne (Scalar.extui (Scalar.cmpi .eq (BitVec.ofNat 32 (i 2).val) 0#32)) 0#32) = 1#1
theorem hcondFirst : ∀ t : Fin cfg2.N, condFirst (grid2.coords t) ↔ t.val % 2 = 0 :=
  (by decide +kernel : ∀ t : Fin grid2.N, condFirst (grid2.coords t) ↔ t.val % 2 = 0)

/-- "This is the last half of the contraction": the body adds the bias row and stores the output block. -/
abbrev condLast (i : grid2.Coords) : Prop := k2_cond2 i = 1#1
theorem hcondLast : ∀ t : Fin cfg2.N, condLast (grid2.coords t) ↔ t.val % 2 = 1 :=
  (by decide +kernel : ∀ t : Fin grid2.N, condLast (grid2.coords t) ↔ t.val % 2 = 1)

/-! ## Where the windows are idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
/-- At an even position the output window is idle (nothing is stored into it) and is not written back; -/
theorem idle2_3 : ∀ t : Fin cfg2.N, t.val % 2 = 0 → cfg2.idle 3 (grid2.coords t) = true :=
  (by decide +kernel : ∀ t : Fin grid2.N, t.val % 2 = 0 → cfg2.idle 3 (grid2.coords t) = true)
theorem noflush2_3 : ∀ t : Fin cfg2.N, t.val % 2 = 0 → (cfg2.win 3).flush t = false :=
  (by decide +kernel : ∀ t : Fin grid2.N, t.val % 2 = 0 → win2_3.flush t = false)
/-- at an odd one it is live. -/
theorem live2_3 : ∀ t : Fin cfg2.N, t.val % 2 = 1 → cfg2.idle 3 (grid2.coords t) = false :=
  (by decide +kernel : ∀ t : Fin grid2.N, t.val % 2 = 1 → cfg2.idle 3 (grid2.coords t) = false)

/-! ## The buffers the body is called with -/

abbrev ms2_0 (t : Fin cfg2.N) : Memref sig .tc .vmem S1024x2048 .bf16 := win2_0.stage (cfg2.slots t 0)
abbrev hs2_0 (t : Fin cfg2.N) : (ms2_0 t).IsWhole := Facts₀.hstage2_0 ((cfg2.slots t 0).cast Facts₀.nbuf2_0)
abbrev ms2_1 (t : Fin cfg2.N) : Memref sig .tc .vmem S2048x1024 .bf16 := win2_1.stage (cfg2.slots t 1)
abbrev hs2_1 (t : Fin cfg2.N) : (ms2_1 t).IsWhole := Facts₀.hstage2_1 ((cfg2.slots t 1).cast Facts₀.nbuf2_1)
abbrev ms2_2 (t : Fin cfg2.N) : Memref sig .tc .vmem S1x1024 .f32 := win2_2.stage (cfg2.slots t 2)
abbrev hs2_2 (t : Fin cfg2.N) : (ms2_2 t).IsWhole := Facts₀.hstage2_2 ((cfg2.slots t 2).cast Facts₀.nbuf2_2)
abbrev ms2_3 (t : Fin cfg2.N) : Memref sig .tc .vmem S1024x1024 .f32 := win2_3.stage (cfg2.slots t 3)
abbrev hs2_3 (t : Fin cfg2.N) : (ms2_3 t).IsWhole := Facts₀.hstage2_3 ((cfg2.slots t 3).cast Facts₀.nbuf2_3)
/-- The running sum's scratch block, -/
abbrev scM : Memref sig .tc .vmem S1024x1024 .f32 := Memref.whole cc2_scratch0
/-- as a view, through which its contents are stated; and one output staging buffer likewise. -/
abbrev VS : View sig .tc .vmem S1024x1024 .f32 := scM.view
abbrev VO : View sig .tc .vmem S1024x1024 .f32 := (Memref.whole cc2_stg3_0 : Memref sig .tc .vmem S1024x1024 .f32).view

/-- The region's scoped buffers that are no staging buffer of its own, with the scratch block split off. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers, never opened here. -/
abbrev others (c : Dev nD) : sProp 𝕄 :=
  Pipeline.scopedRestBut (Ix := Unit) (Name := ℕ) (U := UR sig nD τ) (Lvl := ℕ) (Val := Elt F) spec2 c [cc2_scratch0]

/-- The class invariant with the scratch block as a memref owned at some contents. -/
theorem PhiA2_eq (c : Dev nD) :
    (Pipeline.ΦA spec2 c : sProp 𝕄)
      = iprop(iprop((∃ d, owns (c : Thread nD τ) scM fullShare d) ∗ others (F := F) c) ∗ (∃ r, prngReg c r)) := by
  unfold Pipeline.ΦA; rw [scopedRest2_split]; simp only [scM, owns_whole]; try rfl

/-! ## The body's run in either case -/

set_option maxHeartbeats 2000000 in
/-- FIRST HALF (the running sum is cleared, the output is not stored): on whole buffers, the two operand blocks at
    contents `x0`, `x1` and the scratch at anything, the body runs to the continuation with the operands as they were
    and the scratch with the found pieces written. The bias and output buffers are not touched. -/
noncomputable def runFirst (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : condFirst i) (hc1 : ¬condLast i)
    (x0 : Vec F S1024x2048 .bf16) (x1 : Vec F S2048x1024 .bf16) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_bias_kernel i arg3 harg3 arg4 harg4 arg5 harg5 arg6 harg6 arg7 harg7) K } := by
  refine ⟨?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 2000000 in
/-- LAST HALF (the running sum is kept, the output is stored): the operand blocks at `x0`, `x1`, the bias row at
    `x2`, the output at anything, the scratch at the contents `xs` the point before left: the body runs to the
    continuation with the inputs as they were and the output and the scratch with the found pieces written. -/
noncomputable def runLast (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬condFirst i) (hc1 : condLast i)
    (x0 : Vec F S1024x2048 .bf16) (x1 : Vec F S2048x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Fr

end
-- ==== Proof.IdealMatmul.lean ====
/-
  Region 2 of the kernel's @main, second half: what the running sum and the output block hold after each grid
  point, the invariant that carries the running sum from the even point of a pair to the odd one, the proof
  data, and the body obligation at every point.
-/
import proofs.«172007_j49074296324136_2_alg».proof.Proof.IdealMatmulRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces cover their blocks; what they leave, read back -/

theorem scoverFirst (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : condFirst i) (hc1 : ¬condLast i)
    (x0 : Vec F S1024x2048 .bf16) (x1 : Vec F S2048x1024 .bf16) (y : S1024x1024.Idx) :
    ∃ pc ∈ (runFirst c i arg3 harg3 arg4 harg4 arg5 harg5 arg6 harg6 arg7 harg7 hc0 hc1 x0 x1).1, y ∈ pc.1.set :=
  View.cover_of_tiledL (runFirst c i arg3 harg3 arg4 harg4 arg5 harg5 arg6 harg6 arg7 harg7 hc0 hc1 x0 x1).1 S1024x1024.size (by sl_kernel_rfl) y

/-- The running sum after the first half of a pair. -/
def sumFirst (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : condFirst i) (hc1 : ¬condLast i)
    (x0 : Vec F S1024x2048 .bf16) (x1 : Vec F S2048x1024 .bf16) : Vec F S1024x1024 .f32 :=
  VS.read (Elt F) (VS.writes (Elt F) VS.junk (runFirst c i arg3 harg3 arg4 harg4 arg5 harg5 arg6 harg6 arg7 harg7 hc0 hc1 x0 x1).1)

theorem coverLast (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬condFirst i) (hc1 : condLast i)
    (x0 : Vec F S1024x2048 .bf16) (x1 : Vec F S2048x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x1024.size (by sl_kernel_rfl) y

/-- The output block after the last half of a pair. -/
def outLast (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬condFirst i) (hc1 : condLast i)
    (x0 : Vec F S1024x2048 .bf16) (x1 : Vec F S2048x1024 .bf16) (x2 : Vec F S1x1024 .f32) (xs : Vec F S1024x1024 .f32) : Vec F S1024x1024 .f32 :=
  VO.read (Elt F) (VO.writes (Elt F) VO.junk (runLast c i arg3 harg3 arg4 harg4 arg5 harg5 arg6 harg6 arg7 harg7 hc0 hc1 x0 x1 x2 xs).1)

section
variable (V : (c : Dev nD) → (b : Ref sig .tc) → Buf (Elt F) ((c : Thread nD τ).loc b))

/-! ## What the running sum and the output block hold, point by point -/

/-- After an EVEN point: the running sum of that point's two operand blocks alone. -/
def accAt (c : Dev nD) (t : Fin cfg2.N) (he : t.val % 2 = 0) : Vec F S1024x1024 .f32 :=
  sumFirst c (grid2.coords t) (ms2_0 t) (hs2_0 t) (ms2_1 t) (hs2_1 t) (ms2_2 t) (hs2_2 t) (ms2_3 t) (hs2_3 t) scM (Memref.isWhole_whole _) ((hcondFirst t).mpr he) (fun h => by have := (hcondLast t).mp h; omega)
    (iblk2 V c 0 t) (iblk2 V c 1 t)

theorem accAt_congr (c : Dev nD) (t t' : Fin cfg2.N) (h : t = t') (he : t.val % 2 = 0) (he' : t'.val % 2 = 0) :
    accAt V c t he = accAt V c t' he' := by subst h; rfl

/-- After an ODD point: the output block, from that point's three input blocks and the running sum the even point
    before it left. At an even point the output window is idle and this value is a placeholder nothing reads. -/
def outAt (c : Dev nD) (t : Fin cfg2.N) : Vec F S1024x1024 .f32 :=
  if ho : t.val % 2 = 1 then
    outLast c (grid2.coords t) (ms2_0 t) (hs2_0 t) (ms2_1 t) (hs2_1 t) (ms2_2 t) (hs2_2 t) (ms2_3 t) (hs2_3 t) scM (Memref.isWhole_whole _) (fun h => by have := (hcondFirst t).mp h; omega) ((hcondLast t).mpr ho)
      (iblk2 V c 0 t) (iblk2 V c 1 t) (iblk2 V c 2 t) (accAt V c ⟨t.val - 1, by have := t.isLt; omega⟩ (by simp only []; omega))
  else VO.read (Elt F) (VO.writes (Elt F) VO.junk [])

/-! ## The invariant between points -/

/-- Before position `n`: if `n` is odd, the scratch block at the running sum the even point `n - 1` left, beside the
    other scoped buffers and the generator register; if `n` is even (the first point, or the point after a finished
    pair) nothing is remembered of the scratch. -/
def Phi2 (c : Dev nD) (n : ℕ) (hn : n ≤ cfg2.N) : sProp 𝕄 :=
  if h : n % 2 = 1 then
    iprop(iprop(owns (c : Thread nD τ) scM fullShare (accAt V c ⟨n - 1, by omega⟩ (by simp only []; omega)) ∗ others (F := F) c) ∗ (∃ r, prngReg c r))
  else Pipeline.ΦA spec2 c

theorem Phi2_even (c : Dev nD) (n : ℕ) (hn : n ≤ cfg2.N) (h : n % 2 = 0) : Phi2 V c n hn = Pipeline.ΦA spec2 c := by
  unfold Phi2; rw [dif_neg (by omega)]

theorem Phi2_odd (c : Dev nD) (n : ℕ) (hn : n ≤ cfg2.N) (h : n % 2 = 1) :
    Phi2 V c n hn = iprop(iprop(owns (c : Thread nD τ) scM fullShare (accAt V c ⟨n - 1, by omega⟩ (by simp only []; omega)) ∗ others (F := F) c) ∗ (∃ r, prngReg c r)) := by
  unfold Phi2; rw [dif_pos h]

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi2_castSucc (c : Dev nD) (t : Fin cfg2.N) :
    (dat2 V c).Φ t.castSucc = Phi2 V c t.val (Nat.le_of_lt t.isLt) := by
  dsimp only [dat2]; simp only [Fin.coe_castSucc]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- At an even point the invariant hands the body the scratch at anything and takes it back at this point's running
    sum; the bias and output buffers pass through untouched (the output window is idle there). At an odd point the
    invariant hands over the scratch at the running sum the point before left; the body leaves the output block at
    `outAt`, and nothing is remembered of the scratch afterwards. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_castSucc]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  by_cases he : t.val % 2 = 0
  · rw [Dat.leavesExact_idle (dat2 V c) 3 t (idle2_3 t he) (noflush2_3 t he)]
    rw [Phi2_even V c t.val _ he, PhiA2_eq, Phi2_odd V c (t.val + 1) t.isLt (by omega)]
    rw [accAt_congr V c ⟨t.val + 1 - 1, by have := t.isLt; omega⟩ t (Fin.ext (by show t.val + 1 - 1 = t.val; omega)) (by simp only []; omega) he]
    unfold accAt sumFirst
    iintro ⟨⟨⟨HS, Hoth⟩, Hg⟩, Ho, ⟨%d0, H0⟩, ⟨%d1, H1⟩, ⟨%d2, H2⟩, H3⟩
    iapply ((runFirst c (grid2.coords t) _ _ _ _ _ _ _ _ _ _ ((hcondFirst t).mpr he) (fun h => by have := (hcondLast t).mp h; omega) (iblk2 V c 0 t) (iblk2 V c 1 t)).2 Set.univ _)
    isplitl [H0]; · iexact H0
    isplitl [H1]; · iexact H1
    isplitl [HS]; · iexact HS
    iintro ⟨H0, H1, ⟨%es, HS⟩⟩
    isplitl [HS Hoth Hg]
    · isplitl [HS Hoth]
      · isplitl [HS]
        · unfold owns; iexists _; isplitr
          swap; · iexact HS
          ipureintro; exact View.read_writes_of_cover _ _ _ _ _ (scoverFirst c _ _ _ _ _ _ _ _ _ _ _ _ _ _ _)
        iexact Hoth
      iexact Hg
    isplitl [Ho]; · iexact Ho
    isplitl [H0]; · iexact H0
    isplitl [H1]; · iexact H1
    isplitl [H2]; · iexact H2
    iexact H3
  · have ho : t.val % 2 = 1 := by omega
    rw [show (dat2 V c).leavesExact 3 t = owns (c : Thread nD τ) (ms2_3 t) fullShare ((dat2 V c).after 3 t) from by
      unfold Dat.leavesExact; rw [live2_3 t ho], after2_3]
    rw [Phi2_odd V c t.val _ ho, Phi2_even V c (t.val + 1) t.isLt (by omega), PhiA2_eq]
    unfold outAt; rw [dif_pos ho]; unfold outLast
    iintro ⟨⟨⟨HS, Hoth⟩, Hg⟩, Ho, ⟨%d0, H0⟩, ⟨%d1, H1⟩, ⟨%d2, H2⟩, ⟨%d3, H3⟩⟩
    iapply ((runLast c (grid2.coords t) _ _ _ _ _ _ _ _ _ _ (fun h => by have := (hcondFirst t).mp h; omega) ((hcondLast t).mpr ho) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · isplitl [HS]
        · iexists _; unfold owns; iexists _; isplitr
          swap; · iexact HS
          ipureintro; rfl
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLast c _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- The class invariant is the invariant before the first point, -/
theorem hin2 (c : Dev nD) : Pipeline.ΦA spec2 c ⊢ (dat2 V c).Φ 0 := by
  rw [show (dat2 V c).Φ 0 = Phi2 V c 0 (Nat.zero_le _) from rfl, Phi2_even V c 0 _ rfl]

/-- and after the last point (an even position) the invariant is the class invariant again. -/
theorem hout2 (c : Dev nD) : (dat2 V c).Φ (Fin.last cfg2.N) ⊢ Pipeline.ΦA spec2 c := by
  rw [show (dat2 V c).Φ (Fin.last cfg2.N) = Phi2 V c cfg2.N (Nat.le_refl _) from rfl,
    Phi2_even V c cfg2.N _ (by rw [show cfg2.N = 64 from N_2])]

end

end Cert.KernelIdeal.Fr

end
-- ==== Proof.IdealRun.lean ====
/-
  The run of the kernel's @main as six segments: flatten the activations (host), re-type them (region 0), make the
  three-valued transposed weights (region 1), view the bias as a row (host), the tiled product with bias
  (region 2), un-flatten the result (host). The contents of every unscoped buffer at each segment boundary are a
  fold from the launch memory: a host stretch applies its operations, a region replaces its arrays by what its
  write-backs leave. The run theorem says every weakly fair execution terminates without fault with every unscoped
  buffer at the last stage of that fold; the argument arrays are then read back to the launch memory, and the
  result array to the un-flattening of region 2's final output array.
-/
import proofs.«172007_j49074296324136_2_alg».proof.Proof.IdealCast
import proofs.«172007_j49074296324136_2_alg».proof.Proof.IdealTernary
import proofs.«172007_j49074296324136_2_alg».proof.Proof.IdealMatmul
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
/-- After the flattening of the activations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the bias is viewed as a row (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit: its arrays at what its write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the un-flattening of the result (the return). -/
abbrev W6 : Dev nD → Valuation τ sig (Elt F) := fun c => StableHlo.after hostOps3 (W5 m ρ c)

/-! ## The proof data family and the thread state -/

abbrev admNone : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admNone p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem ops3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W6 m ρ c)

/-! ## The regions as segments -/

set_option backward.isDefEq.respectTransparency.types false in
/-- Region 0 over the thread state: entered from every unscoped buffer at `W1`, left at `W2`. Its arrays are
    split out of the unscoped buffers at entry and put back at their final contents at exit; the generator register goes
    into the invariant and comes back; nothing is owed; the kernel has no semaphore of its own. -/
def reg0 : Pipeline.RegionSeg (pcfgs (F := F)) admNone (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admNone (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admNone (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers at entry and put back at their final contents at exit; the generator register goes
    into the invariant and comes back; nothing is owed; the kernel has no semaphore of its own. -/
def reg1 : Pipeline.RegionSeg (pcfgs (F := F)) admNone (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admNone (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admNone (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers at entry and put back at their final contents at exit; the generator register goes
    into the invariant and comes back; nothing is owed; the kernel has no semaphore of its own. -/
def reg2 : Pipeline.RegionSeg (pcfgs (F := F)) admNone (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) admNone (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admNone (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) admNone (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)),
    .region (reg2 m ρ),
    .host (hseg hostOps3 hostOps3_sub ops3_fresh (W5 m ρ)) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, with every unscoped
    buffer of every core at the last stage of the fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) admNone (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, -, Ho⟩
      isplitl [Hh]; · iexact Hh
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      unfold Tₙ StableHlo.held
      iintro ⟨Hh, HSI⟩
      imodintro
      iapply (pointsTo_read_all (Pipeline.ucRefs τ sig) (fun b => (((c : Thread nD τ)).1, b)) (W6 m ρ c) s')
      isplitl [Hh] <;> iassumption)
    (hQ := fun s h => h)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg2) := rfl

/-- THE FRAME: every execution terminates without fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run m ρ)

end Cert.KernelIdeal.Fr

end
-- ==== Proof.Spec.lean ====
/-
  The function both programs compute, over the extended reals, index by index; and the one law that joins the
  kernel's arrangement of it to the reference's.

  `tern v` is the three-valued sign of a weight relative to the threshold θ = 0.05 (as its f32 pattern): +1 if
  v > θ, −1 if v < −θ, 0 otherwise. The result at (b, s, o) is the sum over the 4096 input features d of
  x (b, s, d) · tern (w (o, d)), plus bias o. The kernel forms that sum in two halves of 2048 features, starting
  from zero; the reference forms it in one. Addition on the extended reals is commutative and associative with 0
  neutral, so the two agree with no finiteness assumption.
-/
import Idealize.ShloMosaic.PureOps.Ideal
import Idealize.ShloMosaic.Lib.ValueIdx

noncomputable section

open scoped BigOperators

namespace Cert.Spec

open Idealize.ShloMosaic Idealize.ShloMosaic.ValueIdx

/-- The three-valued sign of a weight relative to the threshold. -/
def tern (v : Ideal .f32) : Ideal .f32 :=
  Scalar.select (FloatOps.cmpf (F := Ideal) (φ := .f32) .ogt v (Ideal.ofBits .f32 0x3D4CCCCD#32)) (Ideal.ofBits .f32 0x3F800000#32)
    (Scalar.select (FloatOps.cmpf (F := Ideal) (φ := .f32) .olt v (Ideal.ofBits .f32 0xBD4CCCCD#32)) (Ideal.ofBits .f32 0xBF800000#32)
      (Ideal.ofBits .f32 0x00000000#32))

/-- The lower and upper half of the feature axis. -/
abbrev lo (k : Fin 2048) : Fin 4096 := ⟨k.val, by have := k.isLt; omega⟩
abbrev hi (k : Fin 2048) : Fin 4096 := ⟨2048 + k.val, by have := k.isLt; omega⟩

/-- A sum over 4096 features is zero plus the sum over the lower half, plus the sum over the upper half. -/
theorem sum_halves (f : Fin 4096 → EReal) :
    ((0 + ∑ k : Fin 2048, f (lo k)) + ∑ k : Fin 2048, f (hi k)) = ∑ k : Fin 4096, f k := by
  rw [zero_add]
  exact (Fin.sum_univ_add (a := 2048) (b := 2048) (fun i : Fin (2048 + 2048) => f i)).symm

/-- The result, index by index: features summed in one go, then the bias. -/
def G (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun i => (∑ k : Fin 4096, x (ix3 (i 0) (i 1) k) * tern (w (ix2 (i 2) k))) + b (ix1 (i 2))

end Cert.Spec

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.IdealPayloads.lean ====
/-
  The kernel bodies' arithmetic at the exact reals, one entry at a time: the narrowing pass returns the entry it
  loaded; the weight pass returns the three-valued sign of the transposed entry; the cleared running sum is 0;
  one step of the running sum adds to it the 2048-term partial product of the row of the left block and the
  column of the right block; the final store adds the bias row's entry of the column. And, for any float
  interpretation, the pieces the tiled product's body was found to store are those payloads of the loaded blocks.
-/
import proofs.«172007_j49074296324136_2_alg».proof.Proof.IdealMatmul
import proofs.«172007_j49074296324136_2_alg».proof.Proof.Spec
import proofs.«172007_j49074296324136_2_alg».proof.Proof.LibPlainDot
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec
open scoped BigOperators

theorem hz : (![0, 0] : Fin 2 → Nat) = fun _ => 0 := funext fun a => by fin_cases a <;> rfl

/-! ## The found pieces are the payloads of the loaded blocks (any float interpretation) -/

/-- After the first half of a pair the running sum is one step from the cleared sum. -/
theorem sumFirst_eq (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : condFirst i) (hc1 : ¬condLast i)
    (x0 : Vec F S1024x2048 .bf16) (x1 : Vec F S2048x1024 .bf16) :
    sumFirst c i arg3 harg3 arg4 harg4 arg5 harg5 arg6 harg6 arg7 harg7 hc0 hc1 x0 x1 = k2_pay2 (k2_pay1 (F := F)) x0 x1 := by
  unfold sumFirst
  rw [View.read_writes_eq_canon _ _ _ (scoverFirst c i arg3 harg3 arg4 harg4 arg5 harg5 arg6 harg6 arg7 harg7 hc0 hc1 x0 x1)]
  unfold runFirst
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz, View.ld_unit_zero (S := S2048x1024) hz]

/-- After the last half the output block is the bias step over one more step of the running sum. -/
theorem outLast_eq (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬condFirst i) (hc1 : condLast i)
    (x0 : Vec F S1024x2048 .bf16) (x1 : Vec F S2048x1024 .bf16) (x2 : Vec F S1x1024 .f32) (xs : Vec F S1024x1024 .f32) :
    outLast c i arg3 harg3 arg4 harg4 arg5 harg5 arg6 harg6 arg7 harg7 hc0 hc1 x0 x1 x2 xs = k2_pay3 x2 (k2_pay2 xs x0 x1) := by
  unfold outLast
  rw [View.read_writes_eq_canon _ _ _ (coverLast c i arg3 harg3 arg4 harg4 arg5 harg5 arg6 harg6 arg7 harg7 hc0 hc1 x0 x1 x2 xs)]
  unfold runLast
  dsimp only
  sl_unfold_words
  rw [View.canon_unit_zero hz, View.readCov_unit_zero (S := S1024x1024) _ hz]
  simp only [View.readAt_eq_ld, harg3.read_unread, harg4.read_unread, harg5.read_unread, harg7.read_unread, View.ld_unit_zero (S := S1024x2048) hz, View.ld_unit_zero (S := S2048x1024) hz, View.ld_unit_zero (S := S1024x1024) hz, View.ld_unit_zero (S := S1x1024) hz]

/-! ## The payloads at an index, at the exact reals -/

theorem pay_cast_apply (x : Vec Ideal S512x4096 .f32) (j : S512x4096.Idx) : k0_pay1 (F := Ideal) x j = x j := by
  unfold k0_pay1
  simp only [shapeCast_self]
  rfl

theorem pay_tern_apply (x : Vec Ideal S256x4096 .f32) (j : S4096x256.Idx) :
    k1_pay1 (F := Ideal) x j = tern (x (ix2 (j 1) (j 0))) := by
  unfold k1_pay1
  refine (truncf_apply (φ := .f32) (ψ := .bf16) _ Facts₀.bitsLt_bf16_f32 j).trans ?_
  refine (transpose_apply (s := S256x4096) (t := S4096x256) [1, 0] _ Facts₀.transposes_S256x4096_p1_0_S4096x256 j (ix2 (j 1) (j 0))
    (fun b => by match b with | ⟨0, _⟩ => rfl | ⟨1, _⟩ => rfl)).trans ?_
  rfl

theorem pay_clear_apply (j : S1024x1024.Idx) : k2_pay1 (F := Ideal) j = 0 := by
  unfold k2_pay1
  simp only [shapeCast_self]
  exact Ideal.ofBits_zero_f32

theorem pay_step_apply (a : Vec Ideal S1024x1024 .f32) (x0 : Vec Ideal S1024x2048 .bf16) (x1 : Vec Ideal S2048x1024 .bf16) (j : S1024x1024.Idx) :
    k2_pay2 (F := Ideal) a x0 x1 j = a j + ∑ k : Fin 2048, x0 (ix2 (j 0) k) * x1 (ix2 k (j 1)) := by
  unfold k2_pay2
  simp only [shapeCast_self]
  exact congrArg (a j + ·) (PlainDot.matmul_zero_plain dot_S1024x2048_S2048x1024_S1024x1024_1_0_0_1_n_n rfl rfl rfl rfl rfl rfl none x0 x1 j)

theorem pay_bias_apply (x2 : Vec Ideal S1x1024 .f32) (a : Vec Ideal S1024x1024 .f32) (j : S1024x1024.Idx) :
    k2_pay3 (F := Ideal) x2 a j = a j + x2 (ix2 (0 : Fin 1) (j 1)) := by
  unfold k2_pay3
  simp only [shapeCast_self]
  exact congrArg (a j + ·) (broadcastTo_apply (s := S1x1024) (t := S1024x1024) x2 Facts₀.broadcasts_S1x1024_S1024x1024 j (ix2 (0 : Fin 1) (j 1))
    (fun b => by match b with | ⟨0, _⟩ => rfl | ⟨1, _⟩ => rfl))

end Cert.KernelIdeal.Fr

end
-- ==== Proof.IdealArrays01.lean ====
/-
  What regions 0 and 1 leave in their output arrays, as whole-array functions at the exact reals. Region 0's
  blocks are 512-row bands of the flattened activations and each output band is the input band entry for entry,
  so the array ends as the flattened activations themselves. Region 1's input blocks are 256-row bands of the
  weights and its output blocks the matching 256-column bands of the transposed array, entry (k, o) of which is
  the three-valued sign of weight (o, k). In both regions the 16 output blocks tile the array.
-/
import proofs.«172007_j49074296324136_2_alg».proof.Proof.IdealPayloads
import proofs.«172007_j49074296324136_2_alg».proof.Proof.IdealCast
import proofs.«172007_j49074296324136_2_alg».proof.Proof.IdealTernary
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec
open scoped BigOperators

section
variable (V : (c : Dev nD) → (b : Ref sig .tc) → Buf (Elt Ideal) ((c : Thread nD τ).loc b))

/-! ## Region 0 -/

/-- The activations re-typed: the same extended reals. -/
def sameArr (a : S8192x4096.Idx → Elt Ideal .f32) : S8192x4096.Idx → Elt Ideal .bf16 := fun i => a i

theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is band `t` of the re-typed activations. -/
theorem flushed0 (c : Dev nD) (t : Fin cfg0.N) :
    (dat0 V c).flushed 1 t = ((cfg0.win 1).blk t).view.read (Elt Ideal) (sameArr (V c main_v0)) := by
  show (cfg0.win 1).cut (grid0.coords t) ((dat0 V c).after 1 t) = _
  rw [after0_1]
  unfold out0_1
  rw [View.canon_unit_zero hz]
  simp only [View.ld_unit_zero (S := S512x4096) hz]
  obtain ⟨e0, e1, e2, e3⟩ := idx0 t
  funext j
  refine (pay_cast_apply (iblk0 V c 0 t) j).trans ?_
  show V c main_v0 (((cfg0.win 0).blk t).view.emb j) = V c main_v0 (((cfg0.win 1).blk t).view.emb j)
  refine congrArg (V c main_v0) ?_
  funext a; apply Fin.ext
  match a with
  | ⟨0, _⟩ => show win0_0.index t (0 : Fin 2) * 512 + 1 * (j 0).val = win0_1.index t (0 : Fin 2) * 512 + 1 * (j 0).val; omega
  | ⟨1, _⟩ => show win0_0.index t (1 : Fin 2) * 4096 + 1 * (j 1).val = win0_1.index t (1 : Fin 2) * 4096 + 1 * (j 1).val; omega

theorem mem_blk0 (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v1).slice (win0_1.rect t)).set ↔ _
  rw [View.set_slice_whole, Rect.mem_set_unit]
  exact Iff.rfl

/-- Row `r` lies in band `r / 512`. -/
theorem cover0 (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 16 := N_0
  have hlt : (i 0).val / 512 < cfg0.N := by rw [hN]; omega
  obtain ⟨e0, e1, e2, e3⟩ := idx0 ⟨(i 0).val / 512, hlt⟩
  have e2' : win0_1.index ⟨(i 0).val / 512, hlt⟩ (0 : Fin 2) = (i 0).val / 512 := e2
  refine ⟨⟨(i 0).val / 512, hlt⟩, flush0_1 _, ?_⟩
  rw [mem_blk0]
  intro a
  match a with
  | ⟨0, _⟩ => show win0_1.index ⟨(i 0).val / 512, hlt⟩ (0 : Fin 2) * 512 ≤ (i 0).val ∧ (i 0).val < win0_1.index ⟨(i 0).val / 512, hlt⟩ (0 : Fin 2) * 512 + 512; omega
  | ⟨1, _⟩ => show win0_1.index ⟨(i 0).val / 512, hlt⟩ (1 : Fin 2) * 4096 ≤ (i 1).val ∧ (i 1).val < win0_1.index ⟨(i 0).val / 512, hlt⟩ (1 : Fin 2) * 4096 + 4096; omega

/-- Region 0 leaves the flattened activations, re-typed. -/
theorem final0 (c : Dev nD) : (dat0 V c).arrAt 1 cfg0.N = sameArr (V c main_v0) :=
  (dat0 V c).arrAt_eq_of_cover 1 (sameArr (V c main_v0)) (fun t _ => flushed0 V c t) cover0

/-! ## Region 1 -/

/-- The three-valued weights, transposed: entry (k, o) is the sign of weight (o, k). -/
def ternT (w : S4096x4096.Idx → Elt Ideal .f32) : S4096x4096.Idx → Elt Ideal .bf16 := fun i => tern (w (ix2 (i 1) (i 0)))

theorem idx1 : ∀ t : Fin cfg1.N, win1_0.index t (0 : Fin 2) = t.val ∧ win1_0.index t (1 : Fin 2) = 0
    ∧ win1_1.index t (0 : Fin 2) = 0 ∧ win1_1.index t (1 : Fin 2) = t.val :=
  (by decide +kernel : ∀ t : Fin grid1.N, _)

/-- What point `t` writes back is column band `t` of the transposed three-valued weights. -/
theorem flushed1 (c : Dev nD) (t : Fin cfg1.N) :
    (dat1 V c).flushed 1 t = ((cfg1.win 1).blk t).view.read (Elt Ideal) (ternT (V c main_arg1)) := by
  show (cfg1.win 1).cut (grid1.coords t) ((dat1 V c).after 1 t) = _
  rw [after1_1]
  unfold out1_1
  rw [View.canon_unit_zero hz]
  simp only [View.ld_unit_zero (S := S256x4096) hz]
  obtain ⟨e0, e1, e2, e3⟩ := idx1 t
  funext j
  refine (pay_tern_apply (iblk1 V c 0 t) j).trans ?_
  show tern (V c main_arg1 (((cfg1.win 0).blk t).view.emb (ix2 (j 1) (j 0))))
    = tern (V c main_arg1 (ix2 ((((cfg1.win 1).blk t).view.emb j) 1) ((((cfg1.win 1).blk t).view.emb j) 0)))
  refine congrArg (fun z => tern (V c main_arg1 z)) ?_
  funext a; apply Fin.ext
  match a with
  | ⟨0, _⟩ => show win1_0.index t (0 : Fin 2) * 256 + 1 * (j 1).val = win1_1.index t (1 : Fin 2) * 256 + 1 * (j 1).val; omega
  | ⟨1, _⟩ => show win1_0.index t (1 : Fin 2) * 4096 + 1 * (j 0).val = win1_1.index t (0 : Fin 2) * 4096 + 1 * (j 0).val; omega

theorem mem_blk1 (t : Fin cfg1.N) (i : S4096x4096.Idx) :
    i ∈ ((cfg1.win 1).blk t).view.set ↔ ∀ a : Fin 2, win1_1.index t a * S4096x256.size a ≤ (i a).val ∧ (i a).val < win1_1.index t a * S4096x256.size a + S4096x256.size a := by
  show i ∈ ((View.whole main_v2).slice (win1_1.rect t)).set ↔ _
  rw [View.set_slice_whole, Rect.mem_set_unit]
  exact Iff.rfl

/-- Column `o` lies in band `o / 256`. -/
theorem cover1 (i : S4096x4096.Idx) : ∃ t : Fin cfg1.N, (cfg1.win 1).flush t = true ∧ i ∈ ((cfg1.win 1).blk t).view.set := by
  have hi0 : (i 0).val < 4096 := (i 0).isLt
  have hi1 : (i 1).val < 4096 := (i 1).isLt
  have hN : cfg1.N = 16 := N_1
  have hlt : (i 1).val / 256 < cfg1.N := by rw [hN]; omega
  obtain ⟨e0, e1, e2, e3⟩ := idx1 ⟨(i 1).val / 256, hlt⟩
  have e3' : win1_1.index ⟨(i 1).val / 256, hlt⟩ (1 : Fin 2) = (i 1).val / 256 := e3
  refine ⟨⟨(i 1).val / 256, hlt⟩, flush1_1 _, ?_⟩
  rw [mem_blk1]
  intro a
  match a with
  | ⟨0, _⟩ => show win1_1.index ⟨(i 1).val / 256, hlt⟩ (0 : Fin 2) * 4096 ≤ (i 0).val ∧ (i 0).val < win1_1.index ⟨(i 1).val / 256, hlt⟩ (0 : Fin 2) * 4096 + 4096; omega
  | ⟨1, _⟩ => show win1_1.index ⟨(i 1).val / 256, hlt⟩ (1 : Fin 2) * 256 ≤ (i 1).val ∧ (i 1).val < win1_1.index ⟨(i 1).val / 256, hlt⟩ (1 : Fin 2) * 256 + 256; omega

/-- Region 1 leaves the three-valued weights, transposed. -/
theorem final1 (c : Dev nD) : (dat1 V c).arrAt 1 cfg1.N = ternT (V c main_arg1) :=
  (dat1 V c).arrAt_eq_of_cover 1 (ternT (V c main_arg1)) (fun t _ => flushed1 V c t) cover1

end

end Cert.KernelIdeal.Fr

end
-- ==== Proof.IdealArrays2.lean ====
/-
  What region 2 leaves in its output array, as one whole-array function at the exact reals. The output block of
  the pair of points (2p, 2p + 1) is written back at the odd one. Its entry (r, c) is: zero, plus the 2048-term
  product of row r of the left block of the even point with column c of its right block, plus the same of the odd
  point's blocks, plus the bias row's entry c. The even point's blocks are the lower halves of the feature axis and
  the odd point's the upper halves, of the same row band and column band as the output block; so the block is the
  restriction of `twoHalves` below, and the 32 output blocks tile the 8192 × 4096 array.
-/
import proofs.«172007_j49074296324136_2_alg».proof.Proof.IdealPayloads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec
open scoped BigOperators

section
variable (V : (c : Dev nD) → (b : Ref sig .tc) → Buf (Elt Ideal) ((c : Thread nD τ).loc b))

/-- Row r of `xa` against column c of `wt`, the lower half of the features then the upper half, from zero; then
    the bias row's entry c. -/
def twoHalves (xa : S8192x4096.Idx → Elt Ideal .bf16) (wt : S4096x4096.Idx → Elt Ideal .bf16) (b : S1x4096.Idx → Elt Ideal .f32) :
    S8192x4096.Idx → Elt Ideal .f32 :=
  fun i => ((0 + ∑ k : Fin 2048, xa (ix2 (i 0) (lo k)) * wt (ix2 (lo k) (i 1)))
      + ∑ k : Fin 2048, xa (ix2 (i 0) (hi k)) * wt (ix2 (hi k) (i 1)))
    + b (ix2 (0 : Fin 1) (i 1))

/-- The three arrays region 2 reads, as functions into the extended reals. -/
abbrev arrX (c : Dev nD) : S8192x4096.Idx → EReal := V c main_v1
abbrev arrW (c : Dev nD) : S4096x4096.Idx → EReal := V c main_v2
abbrev arrB (c : Dev nD) : S1x4096.Idx → EReal := V c main_v3

/-- The block indices over the grid: position t is row band t / 8, column band (t / 2) % 4, feature half t % 2. -/
theorem idx2 : ∀ t : Fin cfg2.N, win2_0.index t (0 : Fin 2) = t.val / 8 ∧ win2_0.index t (1 : Fin 2) = t.val % 2
    ∧ win2_1.index t (0 : Fin 2) = t.val % 2 ∧ win2_1.index t (1 : Fin 2) = t.val / 2 % 4
    ∧ win2_2.index t (0 : Fin 2) = 0 ∧ win2_2.index t (1 : Fin 2) = t.val / 2 % 4
    ∧ win2_3.index t (0 : Fin 2) = t.val / 8 ∧ win2_3.index t (1 : Fin 2) = t.val / 2 % 4 :=
  (by decide +kernel : ∀ t : Fin grid2.N, _)

set_option maxHeartbeats 1000000 in
/-- What an odd point writes back is its block of `twoHalves` of the three arrays as the region finds them. -/
theorem flushed2 (c : Dev nD) (t : Fin cfg2.N) (hf : (cfg2.win 3).flush t = true) :
    (dat2 V c).flushed 3 t = ((cfg2.win 3).blk t).view.read (Elt Ideal) (twoHalves (V c main_v1) (V c main_v2) (V c main_v3)) := by
  have ho : t.val % 2 = 1 := (flush2_3 t).mp hf
  have hlt : t.val - 1 < cfg2.N := by have := t.isLt; omega
  show (cfg2.win 3).cut (grid2.coords t) ((dat2 V c).after 3 t) = _
  rw [after2_3]
  unfold outAt
  rw [dif_pos ho, outLast_eq]
  unfold accAt
  rw [sumFirst_eq]
  obtain ⟨a0, a1, a2, a3, a4, a5, a6, a7⟩ := idx2 t
  obtain ⟨b0, b1, b2, b3, b4, b5, b6, b7⟩ := idx2 ⟨t.val - 1, hlt⟩
  dsimp only at b0 b1 b2 b3 b4 b5 b6 b7
  funext j
  have hj0 : (j 0).val < 1024 := (j 0).isLt
  have hj1 : (j 1).val < 1024 := (j 1).isLt
  refine (pay_bias_apply _ _ j).trans ?_
  refine (congrArg (· + _) ((pay_step_apply _ _ _ j).trans (congrArg (· + _) ((pay_step_apply _ _ _ j).trans (congrArg (· + _) (pay_clear_apply j)))))).trans ?_
  show (((0 : EReal) + ∑ k : Fin 2048, arrX V c (((cfg2.win 0).blk ⟨t.val - 1, hlt⟩).view.emb (ix2 (j 0) k)) * arrW V c (((cfg2.win 1).blk ⟨t.val - 1, hlt⟩).view.emb (ix2 k (j 1))))
      + ∑ k : Fin 2048, arrX V c (((cfg2.win 0).blk t).view.emb (ix2 (j 0) k)) * arrW V c (((cfg2.win 1).blk t).view.emb (ix2 k (j 1))))
      + arrB V c (((cfg2.win 2).blk t).view.emb (ix2 (0 : Fin 1) (j 1)))
    = (((0 : EReal) + ∑ k : Fin 2048, arrX V c (ix2 ((((cfg2.win 3).blk t).view.emb j) 0) (lo k)) * arrW V c (ix2 (lo k) ((((cfg2.win 3).blk t).view.emb j) 1)))
      + ∑ k : Fin 2048, arrX V c (ix2 ((((cfg2.win 3).blk t).view.emb j) 0) (hi k)) * arrW V c (ix2 (hi k) ((((cfg2.win 3).blk t).view.emb j) 1)))
      + arrB V c (ix2 (0 : Fin 1) ((((cfg2.win 3).blk t).view.emb j) 1))
  refine congrArg₂ (· + ·) (congrArg₂ (· + ·) (congrArg (0 + ·) (Finset.sum_congr rfl fun k _ => ?_)) (Finset.sum_congr rfl fun k _ => ?_)) (congrArg (arrB V c) ?_)
  · -- the even point's blocks are the lower halves
    have hk : k.val < 2048 := k.isLt
    refine congrArg₂ (· * ·) (congrArg (arrX V c) ?_) (congrArg (arrW V c) ?_)
    · funext a; apply Fin.ext
      match a with
      | ⟨0, _⟩ => show win2_0.index ⟨t.val - 1, hlt⟩ (0 : Fin 2) * 1024 + 1 * (j 0).val = win2_3.index t (0 : Fin 2) * 1024 + 1 * (j 0).val; omega
      | ⟨1, _⟩ => show win2_0.index ⟨t.val - 1, hlt⟩ (1 : Fin 2) * 2048 + 1 * k.val = k.val; omega
    · funext a; apply Fin.ext
      match a with
      | ⟨0, _⟩ => show win2_1.index ⟨t.val - 1, hlt⟩ (0 : Fin 2) * 2048 + 1 * k.val = k.val; omega
      | ⟨1, _⟩ => show win2_1.index ⟨t.val - 1, hlt⟩ (1 : Fin 2) * 1024 + 1 * (j 1).val = win2_3.index t (1 : Fin 2) * 1024 + 1 * (j 1).val; omega
  · -- the odd point's blocks are the upper halves
    have hk : k.val < 2048 := k.isLt
    refine congrArg₂ (· * ·) (congrArg (arrX V c) ?_) (congrArg (arrW V c) ?_)
    · funext a; apply Fin.ext
      match a with
      | ⟨0, _⟩ => show win2_0.index t (0 : Fin 2) * 1024 + 1 * (j 0).val = win2_3.index t (0 : Fin 2) * 1024 + 1 * (j 0).val; omega
      | ⟨1, _⟩ => show win2_0.index t (1 : Fin 2) * 2048 + 1 * k.val = 2048 + k.val; omega
    · funext a; apply Fin.ext
      match a with
      | ⟨0, _⟩ => show win2_1.index t (0 : Fin 2) * 2048 + 1 * k.val = 2048 + k.val; omega
      | ⟨1, _⟩ => show win2_1.index t (1 : Fin 2) * 1024 + 1 * (j 1).val = win2_3.index t (1 : Fin 2) * 1024 + 1 * (j 1).val; omega
  · funext a; apply Fin.ext
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

theorem mem_blk2 (t : Fin cfg2.N) (i : S8192x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v4).slice (win2_3.rect t)).set ↔ _
  rw [View.set_slice_whole, Rect.mem_set_unit]
  exact Iff.rfl

/-- Entry (r, c) lies in the block of the odd point of row band r / 1024 and column band c / 1024. -/
theorem cover2 (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  have hN : cfg2.N = 64 := N_2
  have hlt : (i 0).val / 1024 * 8 + (i 1).val / 1024 * 2 + 1 < cfg2.N := by rw [hN]; omega
  obtain ⟨a0, a1, a2, a3, a4, a5, a6, a7⟩ := idx2 ⟨(i 0).val / 1024 * 8 + (i 1).val / 1024 * 2 + 1, hlt⟩
  dsimp only at a6 a7
  refine ⟨⟨(i 0).val / 1024 * 8 + (i 1).val / 1024 * 2 + 1, hlt⟩, (flush2_3 _).mpr (by show ((i 0).val / 1024 * 8 + (i 1).val / 1024 * 2 + 1) % 2 = 1; omega), ?_⟩
  rw [mem_blk2]
  intro a
  match a with
  | ⟨0, _⟩ => show win2_3.index ⟨(i 0).val / 1024 * 8 + (i 1).val / 1024 * 2 + 1, hlt⟩ (0 : Fin 2) * 1024 ≤ (i 0).val ∧ (i 0).val < win2_3.index ⟨(i 0).val / 1024 * 8 + (i 1).val / 1024 * 2 + 1, hlt⟩ (0 : Fin 2) * 1024 + 1024; omega
  | ⟨1, _⟩ => show win2_3.index ⟨(i 0).val / 1024 * 8 + (i 1).val / 1024 * 2 + 1, hlt⟩ (1 : Fin 2) * 1024 ≤ (i 1).val ∧ (i 1).val < win2_3.index ⟨(i 0).val / 1024 * 8 + (i 1).val / 1024 * 2 + 1, hlt⟩ (1 : Fin 2) * 1024 + 1024; omega

/-- Region 2 leaves the two-half product plus bias of the arrays it finds. -/
theorem final2 (c : Dev nD) : (dat2 V c).arrAt 3 cfg2.N = twoHalves (V c main_v1) (V c main_v2) (V c main_v3) :=
  (dat2 V c).arrAt_eq_of_cover 3 (twoHalves (V c main_v1) (V c main_v2) (V c main_v3)) (fun t hf => flushed2 V c t hf) cover2

end

end Cert.KernelIdeal.Fr

end
-- ==== Proof.IdealResult.lean ====
/-
  The kernel's result array after the run is `Spec.G` of the three argument arrays. Region 2 is entered with the
  re-typed flattened activations (region 0's output array over the flattening), the transposed three-valued weights
  (region 1's output array over the weights as launched), and the bias viewed as a row; it leaves the two-half
  product plus bias of these; the result is that array un-flattened. Entry (b, s, o) is row b·2048 + s, column o:
  the row of the flattened activations is x (b, s, ·), column o of the transposed three-valued weights is the sign
  of w (o, ·), and the two half sums from zero are the one sum over all 4096 features.
-/
import proofs.«172007_j49074296324136_2_alg».proof.Proof.IdealRun
import proofs.«172007_j49074296324136_2_alg».proof.Proof.IdealArrays01
import proofs.«172007_j49074296324136_2_alg».proof.Proof.IdealArrays2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec
open scoped BigOperators

variable (m : (ℓ : Loc nD τ sig) → Buf (Elt Ideal) ℓ) (ρ : Dev nD → PrngReg)

/-! ## What the host stretches write -/

theorem stage_v0 (c : Dev nD) : W1 m ρ c (Proc.devRef .tc main_v0)
    = shapeCast S8192x4096 (m ((c : Thread nD τ).loc main_arg0)) Facts₀.shapeCasts_S4x2048x4096_S8192x4096 := by
  show StableHlo.after hostOps0 (W0 m ρ c) (Proc.devRef .tc main_v0) = _
  after_results
  rfl

theorem stage_v3 (c : Dev nD) : W4 m ρ c (Proc.devRef .tc main_v3)
    = shapeCast S1x4096 (W3 m ρ c (Proc.devRef .tc main_arg2)) Facts₀.shapeCasts_S4096_S1x4096 := by
  show StableHlo.after hostOps2 (W3 m ρ c) (Proc.devRef .tc main_v3) = _
  after_results
  rfl

theorem stage_v5 (c : Dev nD) : W6 m ρ c (Proc.devRef .tc main_v5)
    = shapeCast S4x2048x4096 (W5 m ρ c (Proc.devRef .tc main_v4)) Facts₀.shapeCasts_S8192x4096_S4x2048x4096 := by
  show StableHlo.after hostOps3 (W5 m ρ c) (Proc.devRef .tc main_v5) = _
  after_results
  rfl

/-! ## The three arrays region 2 is entered with -/

theorem entry_v1 (c : Dev nD) : V4 m ρ c main_v1
    = sameArr (shapeCast S8192x4096 (m ((c : Thread nD τ).loc main_arg0)) Facts₀.shapeCasts_S4x2048x4096_S8192x4096) :=
  calc W4 m ρ c (Proc.devRef .tc main_v1)
    _ = W3 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W2 m ρ c (Proc.devRef .tc main_v1) := W3_of_ne m ρ c main_v1 (by decide)
    _ = (dat0 (V1 m ρ) c).arrAt 1 cfg0.N := W2_arr m ρ c 1
    _ = sameArr (V1 m ρ c main_v0) := final0 (V1 m ρ) c
    _ = _ := congrArg sameArr (stage_v0 m ρ c)

theorem entry_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

theorem entry_v2 (c : Dev nD) : V4 m ρ c main_v2 = ternT (m ((c : Thread nD τ).loc main_arg1)) :=
  calc W4 m ρ c (Proc.devRef .tc main_v2)
    _ = W3 m ρ c (Proc.devRef .tc main_v2) := StableHlo.after_of_forall_not_mem (b := Proc.devRef .tc main_v2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = (dat1 (V2 m ρ) c).arrAt 1 cfg1.N := W3_arr m ρ c 1
    _ = ternT (V2 m ρ c main_arg1) := final1 (V2 m ρ) c
    _ = _ := congrArg ternT (entry_arg1 m ρ c)

theorem entry_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg2) := rfl

theorem entry_v3 (c : Dev nD) : V4 m ρ c main_v3
    = shapeCast S1x4096 (m ((c : Thread nD τ).loc main_arg2)) Facts₀.shapeCasts_S4096_S1x4096 :=
  (stage_v3 m ρ c).trans (congrArg (fun z => shapeCast S1x4096 z Facts₀.shapeCasts_S4096_S1x4096) (entry_arg2 m ρ c))

/-- Region 2's output array after the run. -/
theorem exit_v4 (c : Dev nD) : W5 m ρ c (Proc.devRef .tc main_v4)
    = twoHalves (sameArr (shapeCast S8192x4096 (m ((c : Thread nD τ).loc main_arg0)) Facts₀.shapeCasts_S4x2048x4096_S8192x4096))
        (ternT (m ((c : Thread nD τ).loc main_arg1)))
        (shapeCast S1x4096 (m ((c : Thread nD τ).loc main_arg2)) Facts₀.shapeCasts_S4096_S1x4096) :=
  calc W5 m ρ c (Proc.devRef .tc main_v4)
    _ = (dat2 (V4 m ρ) c).arrAt 3 cfg2.N := W5_arr m ρ c 3
    _ = twoHalves (V4 m ρ c main_v1) (V4 m ρ c main_v2) (V4 m ρ c main_v3) := final2 (V4 m ρ) c
    _ = _ := by rw [entry_v1, entry_v2, entry_v3]

/-! ## The result -/

/-- The two-half product plus bias, un-flattened, is the specification. -/
theorem unflatten_twoHalves (X : S4x2048x4096.Idx → EReal) (Wt : S4096x4096.Idx → EReal) (B : S4096.Idx → EReal) :
    shapeCast S4x2048x4096
      (twoHalves (sameArr (shapeCast S8192x4096 X Facts₀.shapeCasts_S4x2048x4096_S8192x4096)) (ternT Wt)
        (shapeCast S1x4096 B Facts₀.shapeCasts_S4096_S1x4096))
      Facts₀.shapeCasts_S8192x4096_S4x2048x4096
    = Cert.Spec.G X Wt B := by
  funext i
  have hi0 : (i 0).val < 4 := (i 0).isLt
  have hi1 : (i 1).val < 2048 := (i 1).isLt
  have hi2 : (i 2).val < 4096 := (i 2).isLt
  have hr : (i 0).val * 2048 + (i 1).val < 8192 := by omega
  refine (shapeCast_apply (s := S8192x4096) (t := S4x2048x4096) _ Facts₀.shapeCasts_S8192x4096_S4x2048x4096 i
    (ix2 (⟨(i 0).val * 2048 + (i 1).val, hr⟩ : Fin 8192) (i 2)) (by
      rw [Shape.rowMajor_val_two, Shape.rowMajor_val_three]; rfl)).trans ?_
  have ex : ∀ k' : Fin 4096, shapeCast S8192x4096 X Facts₀.shapeCasts_S4x2048x4096_S8192x4096
      (ix2 (⟨(i 0).val * 2048 + (i 1).val, hr⟩ : Fin 8192) k') = X (ix3 (i 0) (i 1) k') := fun k' =>
    shapeCast_apply (s := S4x2048x4096) (t := S8192x4096) X Facts₀.shapeCasts_S4x2048x4096_S8192x4096 _ (ix3 (i 0) (i 1) k') (by
      rw [Shape.rowMajor_val_two, Shape.rowMajor_val_three]; rfl)
  have eb : shapeCast S1x4096 B Facts₀.shapeCasts_S4096_S1x4096 (ix2 (0 : Fin 1) (i 2)) = B (ix1 (i 2)) :=
    (shapeCast_addUnit_apply ![4096] B Facts₀.shapeCasts_S4096_S1x4096 (ix2 (0 : Fin 1) (i 2))).trans
      (congrArg B (funext fun a => by match a with | ⟨0, _⟩ => rfl))
  show ((0 + ∑ k : Fin 2048, shapeCast S8192x4096 X Facts₀.shapeCasts_S4x2048x4096_S8192x4096 (ix2 (⟨(i 0).val * 2048 + (i 1).val, hr⟩ : Fin 8192) (lo k)) * tern (Wt (ix2 (i 2) (lo k))))
      + ∑ k : Fin 2048, shapeCast S8192x4096 X Facts₀.shapeCasts_S4x2048x4096_S8192x4096 (ix2 (⟨(i 0).val * 2048 + (i 1).val, hr⟩ : Fin 8192) (hi k)) * tern (Wt (ix2 (i 2) (hi k))))
      + shapeCast S1x4096 B Facts₀.shapeCasts_S4096_S1x4096 (ix2 (0 : Fin 1) (i 2))
    = (∑ k : Fin 4096, X (ix3 (i 0) (i 1) k) * tern (Wt (ix2 (i 2) k))) + B (ix1 (i 2))
  rw [eb]
  simp only [ex]
  exact congrArg (· + B (ix1 (i 2))) (sum_halves fun k' => X (ix3 (i 0) (i 1) k') * tern (Wt (ix2 (i 2) k')))

/-- The result array after the run is the specification of the argument arrays as launched. -/
theorem result_eq (c : Dev nD) : W6 m ρ c (Proc.devRef .tc main_v5)
    = Cert.Spec.G (m ((c : Thread nD τ).loc main_arg0)) (m ((c : Thread nD τ).loc main_arg1)) (m ((c : Thread nD τ).loc main_arg2)) :=
  (stage_v5 m ρ c).trans ((congrArg (fun z => shapeCast S4x2048x4096 z Facts₀.shapeCasts_S8192x4096_S4x2048x4096) (exit_v4 m ρ c)).trans
    (unflatten_twoHalves _ _ _))

/-- THE VALUE RUN: every execution terminates without fault, the result array ends at the specification of the
    arguments, and the arguments end as launched. -/
theorem value_run : θ_run defs (onTc (τ := τ) (main (F := Ideal))) ⟨m, fun _ => 0, ρ⟩ (fun r => ∀ c : Dev nD,
      r.2.mem ((c.tc : Thread nD τ).loc main_v5) = Cert.Spec.G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v5 (by decide))).trans (result_eq m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run m ρ)

end Cert.KernelIdeal.Fr

end
-- ==== Proof.RefIsSpec.lean ====
/-
  The reference's result is `Spec.G` of its arguments: its weight stage is the three-valued sign entry by entry,
  its product contracts the feature axis of x (b, s, ·) against row o of that stage, and its two broadcasts put
  bias o at (b, s, o).
-/
import proofs.«172007_j49074296324136_2_alg».proof.Proof.Gen.ReferenceIdeal.Read
import proofs.«172007_j49074296324136_2_alg».proof.Proof.Spec

noncomputable section

namespace Cert.ReferenceIdeal.RefValue

open Cert.ReferenceIdeal Cert.ReferenceIdeal.Read Cert.Spec
open Idealize.ShloMosaic Idealize.ShloMosaic.ValueIdx
open scoped BigOperators

/-- The weight stage at an index is the three-valued sign of the weight there. -/
theorem weight_stage (x1 : (⟨S4096x4096, .f32⟩ : BufTy).Contents (Elt Ideal)) (i : S4096x4096.Idx) :
    val_main_v6 (F := Ideal) x1 i = tern (x1 i) := by
  rw [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  rfl

/-- The reference's last stage is the specification. -/
theorem stage_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) :
    val_main_v10 (F := Ideal) x0 x1 x2 = Cert.Spec.G x0 x1 x2 := by
  funext i
  rw [val_main_v10_apply, val_main_v7_apply, val_main_v9_apply, val_main_v8_apply]
  show (∑ k : Fin 4096, x0 (lidx_main_v7 i k) * val_main_v6 (F := Ideal) x1 (ridx_main_v7 i k)) + x2 (idx_main_v8 (idx_main_v9 i))
    = (∑ k : Fin 4096, x0 (ix3 (i 0) (i 1) k) * tern (x1 (ix2 (i 2) k))) + x2 (ix1 (i 2))
  refine congrArg₂ (· + ·) (Finset.sum_congr rfl fun k _ => ?_) (congrArg x2 ?_)
  · rw [weight_stage]
    exact congrArg₂ (· * ·)
      (congrArg x0 (funext fun a => Fin.ext (by match a with | ⟨0, _⟩ => rfl | ⟨1, _⟩ => rfl | ⟨2, _⟩ => rfl)))
      (congrArg (fun z => tern (x1 z)) (funext fun a => Fin.ext (by match a with | ⟨0, _⟩ => rfl | ⟨1, _⟩ => rfl)))
  · exact funext fun a => Fin.ext (by match a with | ⟨0, _⟩ => rfl)

end Cert.ReferenceIdeal.RefValue

end
-- ==== Proof.lean ====
/-
  A linear layer with three-valued weights: out (b, s, o) = Σ_d x (b, s, d) · tern (w (o, d)) + bias o, where
  tern is the sign of a weight relative to the threshold 0.05 (+1 above it, −1 below its negative, 0 between).

  The kernel computes it in three passes over a flattened view of x (8192 rows of 4096 features): it re-types
  the activations, it forms the three-valued weights transposed, and it multiplies them tile by tile — for each
  1024 × 1024 output tile, the lower 2048 features into a cleared running sum, then the upper 2048 added to it,
  then the bias row — before un-flattening. The reference forms the three-valued weights, contracts the feature
  axis in one product, and adds the broadcast bias. Over the extended reals a change of float format is the
  identity and + is commutative and associative with 0 neutral, so both compute `Spec.G` of the arguments; no
  finiteness is used.

  Frames: each program terminates without fault and leaves its three arguments as launched. For the kernel (at
  the word level and at the exact reals) this is the run of its six segments — three host reshapes and three
  grid regions; the third region carries its running sum from the even point of each pair of grid points to the
  odd one. The idealization rewrote nothing, so `preserves` is `True`.
-/
import proofs.«172007_j49074296324136_2_alg».proof.Defs
import proofs.«172007_j49074296324136_2_alg».proof.Proof.Gen.Kernel
import proofs.«172007_j49074296324136_2_alg».proof.Proof.Gen.KernelIdeal
import proofs.«172007_j49074296324136_2_alg».proof.Proof.Gen.ReferenceIdeal
import proofs.«172007_j49074296324136_2_alg».proof.Proof.Gen.Pre_finite_inputs
import proofs.«172007_j49074296324136_2_alg».proof.Proof.Gen.ReferenceIdeal.Run
import proofs.«172007_j49074296324136_2_alg».proof.Proof.Gen.ReferenceIdeal.Read
import proofs.«172007_j49074296324136_2_alg».proof.Proof.BitsRun
import proofs.«172007_j49074296324136_2_alg».proof.Proof.IdealResult
import proofs.«172007_j49074296324136_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs to the end and keeps its arguments. -/
theorem frame_kernel : Cert.frame_Kernel := fun m ρ _ => Cert.Kernel.Fr.frame m ρ

/-- So does the kernel read at the exact reals. -/
theorem frame_kernelIdeal : Cert.frame_KernelIdeal := fun m ρ _ => Cert.KernelIdeal.Fr.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `Spec.G` of the arguments, which agree. -/
theorem algebraic : Cert.algebraic_KernelIdeal_ReferenceIdeal := by
  intro m ρ m' ρ' _ hagree
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Fr.value_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.RefValue.stage_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
